-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x10x4096 : Shape := ⟨3, ![32, 10, 4096]⟩
abbrev S8192x4096 : Shape := ⟨2, ![8192, 4096]⟩
abbrev S32x1x4096 : Shape := ⟨3, ![32, 1, 4096]⟩
abbrev S32x4096 : Shape := ⟨2, ![32, 4096]⟩
abbrev S_ : Shape := ⟨0, ![]⟩
abbrev S8192x32x10 : Shape := ⟨3, ![8192, 32, 10]⟩
abbrev S32x8192x10 : Shape := ⟨3, ![32, 8192, 10]⟩
abbrev S32x8192 : Shape := ⟨2, ![32, 8192]⟩

class Facts : Prop where
  slices_S32x10x4096_S32x1x4096_0_9_0 : S32x10x4096.Slices ![0, 9, 0] S32x1x4096
  shapeCasts_S32x1x4096_S32x4096 : S32x1x4096.ShapeCasts S32x4096
  bcast_S_S32x10x4096 : S_.BroadcastsInDim S32x10x4096 (![] : Fin 0 → Fin S32x10x4096.rank)
  reducesTo_S32x10x4096_S_d0_1_2 : S32x10x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  transposes_S8192x32x10_S32x8192x10_1_0_2 : S8192x32x10.Transposes [1, 0, 2] S32x8192x10
  bcast_S_S32x8192x10 : S_.BroadcastsInDim S32x8192x10 (![] : Fin 0 → Fin S32x8192x10.rank)
  reducesTo_S32x8192x10_S_d0_1_2 : S32x8192x10.ReducesTo [0, 1, 2] S_
  bcast_S_S32x8192 : S_.BroadcastsInDim S32x8192 (![] : Fin 0 → Fin S32x8192.rank)
  reducesTo_S32x8192_S_d0_1 : S32x8192.ReducesTo [0, 1] S_
  dot_S8192x4096_S32x10x4096_S8192x32x10_1_2_0_01_n_n_wf : DotDims.WF S8192x4096 S32x10x4096 S8192x32x10 [1] [2] [0] [0, 1] [] []
  dot_S32x4096_S8192x4096_S32x8192_1_1_0_0_n_n_wf : DotDims.WF S32x4096 S8192x4096 S32x8192 [1] [1] [0] [0] [] []

variable [Facts]

def dot_S8192x4096_S32x10x4096_S8192x32x10_1_2_0_01_n_n : DotDims S8192x4096 S32x10x4096 S8192x32x10 where
  lhsContracting := [1]
  rhsContracting := [2]
  lhsNonContracting := [0]
  rhsNonContracting := [0, 1]
  lhsBatch := []
  rhsBatch := []
  wf := dot_S8192x4096_S32x10x4096_S8192x32x10_1_2_0_01_n_n_wf
def dot_S32x4096_S8192x4096_S32x8192_1_1_0_0_n_n : DotDims S32x4096 S8192x4096 S32x8192 where
  lhsContracting := [1]
  rhsContracting := [1]
  lhsNonContracting := [0]
  rhsNonContracting := [0]
  lhsBatch := []
  rhsBatch := []
  wf := dot_S32x4096_S8192x4096_S32x8192_1_1_0_0_n_n_wf
def fn_part1 {F : FTy → Type} [FloatOps F] (main_v0 : FVec F S8192x4096 .f32) (main_v2 : FVec F S32x4096 .f32) (main_v16 : IVec S_ 1) (main_v17 : FVec F S32x10x4096 .f32) : IVec S_ 1 :=
  let main_v18 : FVec F S8192x32x10 .f32 := (fun l r => Host.dotGeneral dot_S8192x4096_S32x10x4096_S8192x32x10_1_2_0_01_n_n none l r) main_v0 main_v17
  let main_v19 : FVec F S32x8192x10 .f32 := (transpose S32x8192x10 [1, 0, 2] · transposes_S8192x32x10_S32x8192x10_1_0_2) main_v18
  let main_cst_4 : FVec F S_ .f32 := constant S_ .f32 0x00000000#32
  let main_v20 : FVec F S32x8192x10 .f32 := broadcastInDim S32x8192x10 ![] bcast_S_S32x8192x10 main_cst_4
  let main_v21 : IVec S32x8192x10 1 := cmpf .ogt main_v19 main_v20
  let main_c_5 : IVec S_ 1 := constantI S_ 1 1#1
  let main_v22 : IVec S_ 1 := (fun x v => Host.reduce IntOp.andi x v reducesTo_S32x8192x10_S_d0_1_2 h_S_) main_v21 main_c_5
  let main_v23 : IVec S_ 1 := andi main_v16 main_v22
  let main_v24 : FVec F S32x4096 .f32 := mulf main_v2 main_v2
  let main_v25 : FVec F S32x8192 .f32 := (fun l r => Host.dotGeneral dot_S32x4096_S8192x4096_S32x8192_1_1_0_0_n_n none l r) main_v24 main_v0
  let main_cst_6 : FVec F S_ .f32 := constant S_ .f32 0x00000000#32
  let main_v26 : FVec F S32x8192 .f32 := broadcastInDim S32x8192 ![] bcast_S_S32x8192 main_cst_6
  let main_v27 : IVec S32x8192 1 := cmpf .ogt main_v25 main_v26
  let main_c_7 : IVec S_ 1 := constantI S_ 1 1#1
  let main_v28 : IVec S_ 1 := (fun x v => Host.reduce IntOp.andi x v reducesTo_S32x8192_S_d0_1 h_S_) main_v27 main_c_7
  let main_v29 : IVec S_ 1 := andi main_v23 main_v28
  main_v29

def fn {F : FTy → Type} [FloatOps F] (main_arg0 : FVec F S32x10x4096 .f32) (main_arg1 : FVec F S32x10x4096 .f32) (main_arg2 : FVec F S8192x4096 .f32) : IVec S_ 1 :=
  let main_v0 : FVec F S8192x4096 .f32 := mulf main_arg2 main_arg2
  let main_v1 : FVec F S32x1x4096 .f32 := (extractStridedSlice S32x1x4096 ![0, 9, 0] · slices_S32x10x4096_S32x1x4096_0_9_0) main_arg1
  let main_v2 : FVec F S32x4096 .f32 := shapeCast S32x4096 main_v1 shapeCasts_S32x1x4096_S32x4096
  let main_v3 : FVec F S32x10x4096 .f32 := Host.absf main_arg0
  let main_cst : FVec F S_ .f32 := constant S_ .f32 0x7F800000#32
  let main_v4 : FVec F S32x10x4096 .f32 := broadcastInDim S32x10x4096 ![] bcast_S_S32x10x4096 main_cst
  let main_v5 : IVec S32x10x4096 1 := cmpf .olt main_v3 main_v4
  let main_c : IVec S_ 1 := constantI S_ 1 1#1
  let main_v6 : IVec S_ 1 := (fun x v => Host.reduce IntOp.andi x v reducesTo_S32x10x4096_S_d0_1_2 h_S_) main_v5 main_c
  let main_v7 : FVec F S32x10x4096 .f32 := Host.absf main_arg1
  let main_cst_0 : FVec F S_ .f32 := constant S_ .f32 0x7F800000#32
  let main_v8 : FVec F S32x10x4096 .f32 := broadcastInDim S32x10x4096 ![] bcast_S_S32x10x4096 main_cst_0
  let main_v9 : IVec S32x10x4096 1 := cmpf .olt main_v7 main_v8
  let main_c_1 : IVec S_ 1 := constantI S_ 1 1#1
  let main_v10 : IVec S_ 1 := (fun x v => Host.reduce IntOp.andi x v reducesTo_S32x10x4096_S_d0_1_2 h_S_) main_v9 main_c_1
  let main_v11 : IVec S_ 1 := andi main_v6 main_v10
  let main_v12 : FVec F S8192x4096 .f32 := Host.absf main_arg2
  let main_cst_2 : FVec F S_ .f32 := constant S_ .f32 0x7F800000#32
  let main_v13 : FVec F S8192x4096 .f32 := broadcastInDim S8192x4096 ![] bcast_S_S8192x4096 main_cst_2
  let main_v14 : IVec S8192x4096 1 := cmpf .olt main_v12 main_v13
  let main_c_3 : IVec S_ 1 := constantI S_ 1 1#1
  let main_v15 : IVec S_ 1 := (fun x v => Host.reduce IntOp.andi x v reducesTo_S8192x4096_S_d0_1 h_S_) main_v14 main_c_3
  let main_v16 : IVec S_ 1 := andi main_v11 main_v15
  let main_v17 : FVec F S32x10x4096 .f32 := mulf main_arg0 main_arg0
  fn_part1 (F := F) main_v0 main_v2 main_v16 main_v17
-- ==== Kernel.lean ====
abbrev S32x10x4096 : Shape := ⟨3, ![32, 10, 4096]⟩
abbrev S8192x4096 : Shape := ⟨2, ![8192, 4096]⟩
abbrev S32x1x4096 : Shape := ⟨3, ![32, 1, 4096]⟩
abbrev S32x4096 : Shape := ⟨2, ![32, 4096]⟩
abbrev S320x4096 : Shape := ⟨2, ![320, 4096]⟩
abbrev S960x4096 : Shape := ⟨2, ![960, 4096]⟩
abbrev S320x8192 : Shape := ⟨2, ![320, 8192]⟩
abbrev S512x4096 : Shape := ⟨2, ![512, 4096]⟩
abbrev S320x512 : Shape := ⟨2, ![320, 512]⟩
abbrev S960x512 : Shape := ⟨2, ![960, 512]⟩
abbrev S32x10x8192 : Shape := ⟨3, ![32, 10, 8192]⟩
abbrev S32x8192x10 : Shape := ⟨3, ![32, 8192, 10]⟩

abbrev nBuf : Space → Nat
  | .hbm => 20
  | .vmem => 5
  | .smem => 0
  | _ => 0

abbrev bufTy : (tb : Table) → Fin (tcTables nBuf tb) → BufTy
  | .hbm, ⟨0, _⟩ => ⟨S32x10x4096, .f32⟩
  | .hbm, ⟨1, _⟩ => ⟨S32x10x4096, .f32⟩
  | .hbm, ⟨2, _⟩ => ⟨S8192x4096, .f32⟩
  | .hbm, ⟨3, _⟩ => ⟨S32x1x4096, .f32⟩
  | .hbm, ⟨4, _⟩ => ⟨S32x4096, .f32⟩
  | .hbm, ⟨5, _⟩ => ⟨S32x1x4096, .f32⟩
  | .hbm, ⟨6, _⟩ => ⟨S32x10x4096, .f32⟩
  | .hbm, ⟨7, _⟩ => ⟨S32x10x4096, .f32⟩
  | .hbm, ⟨8, _⟩ => ⟨S320x4096, .f32⟩
  | .hbm, ⟨9, _⟩ => ⟨S32x10x4096, .f32⟩
  | .hbm, ⟨10, _⟩ => ⟨S320x4096, .f32⟩
  | .hbm, ⟨11, _⟩ => ⟨S32x4096, .f32⟩
  | .hbm, ⟨12, _⟩ => ⟨S32x10x4096, .f32⟩
  | .hbm, ⟨13, _⟩ => ⟨S320x4096, .f32⟩
  | .hbm, ⟨14, _⟩ => ⟨S960x4096, .f32⟩
  | .hbm, ⟨15, _⟩ => ⟨S960x4096, .bf16⟩
  | .hbm, ⟨16, _⟩ => ⟨S320x8192, .f32⟩
  | .hbm, ⟨17, _⟩ => ⟨S32x10x8192, .f32⟩
  | .hbm, ⟨18, _⟩ => ⟨S32x8192x10, .f32⟩
  | .hbm, ⟨19, _⟩ => ⟨S32x10x8192, .f32⟩
  | .local _ .vmem, ⟨0, _⟩ => ⟨S960x4096, .bf16⟩
  | .local _ .vmem, ⟨1, _⟩ => ⟨S512x4096, .f32⟩
  | .local _ .vmem, ⟨2, _⟩ => ⟨S512x4096, .f32⟩
  | .local _ .vmem, ⟨3, _⟩ => ⟨S320x512, .f32⟩
  | .local _ .vmem, ⟨4, _⟩ => ⟨S320x512, .f32⟩
  | _, _ => ⟨S32x10x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S960x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S32x10x4096_S32x1x4096_0_9_0 : S32x10x4096.Slices ![0, 9, 0] S32x1x4096
  shapeCasts_S32x1x4096_S32x4096 : S32x1x4096.ShapeCasts S32x4096
  bcast_S32x4096_S32x1x4096_0_2 : S32x4096.BroadcastsInDim S32x1x4096 (![0, 2] : Fin 2 → Fin S32x1x4096.rank)
  bcast_S32x1x4096_S32x10x4096_0_1_2 : S32x1x4096.BroadcastsInDim S32x10x4096 (![0, 1, 2] : Fin 3 → Fin S32x10x4096.rank)
  shapeCasts_S32x10x4096_S320x4096 : S32x10x4096.ShapeCasts S320x4096
  bcast_S32x4096_S32x10x4096_0_2 : S32x4096.BroadcastsInDim S32x10x4096 (![0, 2] : Fin 2 → Fin S32x10x4096.rank)
  concatenates_S320x4096_S320x4096_S320x4096_S960x4096_d0 : Shape.Concatenates [S320x4096, S320x4096, S320x4096] S960x4096 0
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S960x4096_S960x4096_0_0 : ∀ a, (![0, 0] : Fin 2 → Nat) a + S960x4096.size a ≤ S960x4096.size a
  h_S960x4096 : 0 < S960x4096.numel
  shapeCasts_S960x4096_S960x4096 : S960x4096.ShapeCasts S960x4096
  slices_S960x512_o0_0_S320x512 : S960x512.Slices ![0, 0] S320x512
  slices_S960x512_o320_0_S320x512 : S960x512.Slices ![320, 0] S320x512
  slices_S960x512_o640_0_S320x512 : S960x512.Slices ![640, 0] S320x512
  inb_S320x512_S320x512_0_0 : ∀ a, (![0, 0] : Fin 2 → Nat) a + S320x512.size a ≤ S320x512.size a
  h_S320x512 : 0 < S320x512.numel
  shapeCasts_S320x8192_S32x10x8192 : S320x8192.ShapeCasts S32x10x8192
  transposes_S32x10x8192_S32x8192x10_0_2_1 : S32x10x8192.Transposes [0, 2, 1] S32x8192x10
  shapeCasts_S32x8192x10_S32x10x8192 : S32x8192x10.ShapeCasts S32x10x8192
  dot_S960x4096_S512x4096_S960x512_1_1_0_0_n_n_wf : DotDims.WF S960x4096 S512x4096 S960x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S960x4096.size a ≤ S960x4096.size a
  hwx0_0 : ∀ i : grid0.Coords, EltTy.bits .bf16 = 32 ∨ (Rect.block (s := S960x4096) S960x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S320x512.size a ≤ S320x8192.size a
  hwx0_2 : ∀ i : grid0.Coords, EltTy.bits .f32 = 32 ∨ (Rect.block (s := S320x8192) S320x512.size (cc0_transform_2 i) (hinb0_2 i)).WholeWords (EltTy.packing .f32)

variable [Facts₀]

def dot_S960x4096_S512x4096_S960x512_1_1_0_0_n_n : DotDims S960x4096 S512x4096 S960x512 where
  lhsContracting := [1]
  rhsContracting := [1]
  lhsNonContracting := [0]
  rhsNonContracting := [0]
  lhsBatch := []
  rhsBatch := []
  wf := dot_S960x4096_S512x4096_S960x512_1_1_0_0_n_n_wf

abbrev win0_0 : Pipeline.Window sig grid0 :=
  Pipeline.Window.ofSpec (Memref.whole main_v12) S960x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S320x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x10x4096 : Shape := ⟨3, ![32, 10, 4096]⟩
abbrev S8192x4096 : Shape := ⟨2, ![8192, 4096]⟩
abbrev S32x1x4096 : Shape := ⟨3, ![32, 1, 4096]⟩
abbrev S32x4096 : Shape := ⟨2, ![32, 4096]⟩
abbrev S8192x32x10 : Shape := ⟨3, ![8192, 32, 10]⟩
abbrev S32x8192x10 : Shape := ⟨3, ![32, 8192, 10]⟩
abbrev S32x8192 : Shape := ⟨2, ![32, 8192]⟩
abbrev S32x8192x1 : Shape := ⟨3, ![32, 8192, 1]⟩
abbrev S_ : Shape := ⟨0, ![]⟩
abbrev S32x10x8192 : Shape := ⟨3, ![32, 10, 8192]⟩

abbrev nBuf : Space → Nat
  | .hbm => 27
  | .vmem => 0
  | .smem => 0
  | _ => 0

abbrev bufTy : (tb : Table) → Fin (tcTables nBuf tb) → BufTy
  | .hbm, ⟨0, _⟩ => ⟨S32x10x4096, .f32⟩
  | .hbm, ⟨1, _⟩ => ⟨S32x10x4096, .f32⟩
  | .hbm, ⟨2, _⟩ => ⟨S8192x4096, .f32⟩
  | .hbm, ⟨3, _⟩ => ⟨S8192x4096, .f32⟩
  | .hbm, ⟨4, _⟩ => ⟨S32x1x4096, .f32⟩
  | .hbm, ⟨5, _⟩ => ⟨S32x4096, .f32⟩
  | .hbm, ⟨6, _⟩ => ⟨S32x1x4096, .f32⟩
  | .hbm, ⟨7, _⟩ => ⟨S32x10x4096, .f32⟩
  | .hbm, ⟨8, _⟩ => ⟨S32x10x4096, .f32⟩
  | .hbm, ⟨9, _⟩ => ⟨S8192x32x10, .f32⟩
  | .hbm, ⟨10, _⟩ => ⟨S32x8192x10, .f32⟩
  | .hbm, ⟨11, _⟩ => ⟨S32x10x4096, .f32⟩
  | .hbm, ⟨12, _⟩ => ⟨S8192x32x10, .f32⟩
  | .hbm, ⟨13, _⟩ => ⟨S32x8192x10, .f32⟩
  | .hbm, ⟨14, _⟩ => ⟨S32x8192x10, .f32⟩
  | .hbm, ⟨15, _⟩ => ⟨S32x4096, .f32⟩
  | .hbm, ⟨16, _⟩ => ⟨S32x8192, .f32⟩
  | .hbm, ⟨17, _⟩ => ⟨S32x8192, .f32⟩
  | .hbm, ⟨18, _⟩ => ⟨S32x8192x10, .f32⟩
  | .hbm, ⟨19, _⟩ => ⟨S32x8192x1, .f32⟩
  | .hbm, ⟨20, _⟩ => ⟨S32x8192x10, .f32⟩
  | .hbm, ⟨21, _⟩ => ⟨S32x8192x10, .f32⟩
  | .hbm, ⟨22, _⟩ => ⟨S_, .f32⟩
  | .hbm, ⟨23, _⟩ => ⟨S32x8192x10, .f32⟩
  | .hbm, ⟨24, _⟩ => ⟨S32x8192x10, .f32⟩
  | .hbm, ⟨25, _⟩ => ⟨S32x8192x10, .f32⟩
  | .hbm, ⟨26, _⟩ => ⟨S32x10x8192, .f32⟩
  | _, _ => ⟨S32x10x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]

class Facts₀ : Prop where
  slices_S32x10x4096_S32x1x4096_0_9_0 : S32x10x4096.Slices ![0, 9, 0] S32x1x4096
  shapeCasts_S32x1x4096_S32x4096 : S32x1x4096.ShapeCasts S32x4096
  bcast_S32x4096_S32x1x4096_0_2 : S32x4096.BroadcastsInDim S32x1x4096 (![0, 2] : Fin 2 → Fin S32x1x4096.rank)
  bcast_S32x1x4096_S32x10x4096_0_1_2 : S32x1x4096.BroadcastsInDim S32x10x4096 (![0, 1, 2] : Fin 3 → Fin S32x10x4096.rank)
  transposes_S8192x32x10_S32x8192x10_1_0_2 : S8192x32x10.Transposes [1, 0, 2] S32x8192x10
  bcast_S32x8192_S32x8192x1_0_1 : S32x8192.BroadcastsInDim S32x8192x1 (![0, 1] : Fin 2 → Fin S32x8192x1.rank)
  bcast_S32x8192x1_S32x8192x10_0_1_2 : S32x8192x1.BroadcastsInDim S32x8192x10 (![0, 1, 2] : Fin 3 → Fin S32x8192x10.rank)
  bcast_S_S32x8192x10 : S_.BroadcastsInDim S32x8192x10 (![] : Fin 0 → Fin S32x8192x10.rank)
  shapeCasts_S32x8192x10_S32x10x8192 : S32x8192x10.ShapeCasts S32x10x8192
  dot_S8192x4096_S32x10x4096_S8192x32x10_1_2_0_01_n_n_wf : DotDims.WF S8192x4096 S32x10x4096 S8192x32x10 [1] [2] [0] [0, 1] [] []
  dot_S32x4096_S8192x4096_S32x8192_1_1_0_0_n_n_wf : DotDims.WF S32x4096 S8192x4096 S32x8192 [1] [1] [0] [0] [] []

variable [Facts₀]

def dot_S8192x4096_S32x10x4096_S8192x32x10_1_2_0_01_n_n : DotDims S8192x4096 S32x10x4096 S8192x32x10 where
  lhsContracting := [1]
  rhsContracting := [2]
  lhsNonContracting := [0]
  rhsNonContracting := [0, 1]
  lhsBatch := []
  rhsBatch := []
  wf := dot_S8192x4096_S32x10x4096_S8192x32x10_1_2_0_01_n_n_wf
def dot_S32x4096_S8192x4096_S32x8192_1_1_0_0_n_n : DotDims S32x4096 S8192x4096 S32x8192 where
  lhsContracting := [1]
  rhsContracting := [1]
  lhsNonContracting := [0]
  rhsNonContracting := [0]
  lhsBatch := []
  rhsBatch := []
  wf := dot_S32x4096_S8192x4096_S32x8192_1_1_0_0_n_n_wf

class Facts : Prop extends Facts₀ where

variable [Facts]
-- ==== Proof.KernelFrame.lean ====
/-
  The frame of `Kernel`: its @main runs to the end without a fault and leaves the three argument arrays as they were.

  @main is thirteen host operations (the last position of `q` sliced out, the three row blocks `p·q₉`, `p·p`, `q₉·q₉`
  built, stacked into one 960 x 4096 array and rounded), one pipelined region over sixteen column blocks of the
  perspective axis, and three host operations re-laying the region's 320 x 8192 result.  At every grid point the body
  loads the whole stacked operand (fetched once, at the first point) and the point's 512 x 4096 block of `W`, and stores
  one 320 x 512 block covering its output window; it keeps nothing between points.  So what the output window's buffer
  holds after the body is one function of the two input blocks (`out2`), the input buffers hold their blocks at every
  point, and the pipeline's run gives: every window's array at what its write-backs leave, every other buffer as the
  host operations after the region leave it.  No host operation writes an argument array, and the region writes only
  its result array, which gives the frame.
-/
import proofs.«160408_j48481590837593_2_alg».proof.Proof.Gen.Kernel.Launch
import proofs.«160408_j48481590837593_2_alg».proof.Proof.Gen.Kernel.Skeleton
import proofs.«160408_j48481590837593_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the thirteen host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- No host operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the third. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes the first argument, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The stacked operand's staging buffer holds the whole array at every point, fetched there or not: its block
    index never moves, and the body leaves the buffer as it found it. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The current staging buffer of `W`'s window holds the point's block, fetched at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from the pipeline's run -/

/-- The first two arguments bypass the pipeline and no later operation writes them; the third is window 1's array,
    an input, which no write-back touches. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 1).trans (((dats 0 c).arrAt_in 1 rfl _).trans ((hA c 1).trans (V_main_arg2 m c)))⟩) h

/-! ## The body's accesses: each whole buffer -/

abbrev rW : Rect S512x4096 := Rect.unit (s := S512x4096) ![0, 0] S512x4096.size Gen.inb_S512x4096_S512x4096_0_0
abbrev rC : Rect S960x4096 := Rect.unit (s := S960x4096) ![0, 0] S960x4096.size Gen.inb_S960x4096_S960x4096_0_0
abbrev rO : Rect S320x512 := Rect.unit (s := S320x512) ![0, 0] S320x512.size Gen.inb_S320x512_S320x512_0_0

/-- What the output window's buffer holds after the body: its one store, of the body's value on the two loaded blocks. -/
def out2 (x0 : Vec F S960x4096 .bf16) (x1 : Vec F S512x4096 .f32) : Vec F S320x512 .f32 :=
  View.canon [⟨rO, k0_pay1 (View.ld x1 rW) (View.ld x0 rC)⟩]

/-- The one store covers the buffer. -/
theorem cover2 (p0 : Vec F S320x512 .f32) (y : S320x512.Idx) :
    ∃ pc ∈ ([⟨rO, p0⟩] : List (View.Piece (Elt F) S320x512 .f32)), y ∈ pc.1.set :=
  View.cover_of_tiled [⟨rO, p0⟩] S320x512.size (by rfl) y

/-! ## The body's triple -/

set_option maxHeartbeats 1000000 in
/-- The body on whole staging buffers, the inputs' at contents `x0`, `x1` and the output's at anything, ends with the
    inputs' as they were and the output's at `out2 x0 x1`. -/
theorem sound_kernel (c : Dev nD) (E : Set ℕ) (i : grid0.Coords) (arg1 : Memref sig .tc .vmem S960x4096 .bf16) (harg1 : arg1.IsWhole) (arg2 : Memref sig .tc .vmem S512x4096 .f32) (harg2 : arg2.IsWhole) (arg3 : Memref sig .tc .vmem S320x512 .f32) (harg3 : arg3.IsWhole)
    (x0 : Vec F S960x4096 .bf16) (x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The arrays as the region finds them; after the body at point `t` each input's buffer at its block and the output's
    at `out2` of the two blocks; nothing else is used and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every array of the pipeline holds what
    its write-backs leave and every other buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KernelIdealFrame.lean ====
/-
  The frame of `KernelIdeal`: its @main runs to the end without a fault and leaves the three argument arrays as they were.

  @main is thirteen host operations (the last position of `q` sliced out, the three row blocks `p·q₉`, `p·p`, `q₉·q₉`
  built, stacked into one 960 x 4096 array and rounded), one pipelined region over sixteen column blocks of the
  perspective axis, and three host operations re-laying the region's 320 x 8192 result.  At every grid point the body
  loads the whole stacked operand (fetched once, at the first point) and the point's 512 x 4096 block of `W`, and stores
  one 320 x 512 block covering its output window; it keeps nothing between points.  So what the output window's buffer
  holds after the body is one function of the two input blocks (`out2`), the input buffers hold their blocks at every
  point, and the pipeline's run gives: every window's array at what its write-backs leave, every other buffer as the
  host operations after the region leave it.  No host operation writes an argument array, and the region writes only
  its result array, which gives the frame.
-/
import proofs.«160408_j48481590837593_2_alg».proof.Proof.Gen.KernelIdeal.Launch
import proofs.«160408_j48481590837593_2_alg».proof.Proof.Gen.KernelIdeal.Skeleton
import proofs.«160408_j48481590837593_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the thirteen host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- No host operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the third. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes the first argument, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The stacked operand's staging buffer holds the whole array at every point, fetched there or not: its block
    index never moves, and the body leaves the buffer as it found it. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The current staging buffer of `W`'s window holds the point's block, fetched at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from the pipeline's run -/

/-- The first two arguments bypass the pipeline and no later operation writes them; the third is window 1's array,
    an input, which no write-back touches. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 1).trans (((dats 0 c).arrAt_in 1 rfl _).trans ((hA c 1).trans (V_main_arg2 m c)))⟩) h

/-! ## The body's accesses: each whole buffer -/

abbrev rW : Rect S512x4096 := Rect.unit (s := S512x4096) ![0, 0] S512x4096.size Gen.inb_S512x4096_S512x4096_0_0
abbrev rC : Rect S960x4096 := Rect.unit (s := S960x4096) ![0, 0] S960x4096.size Gen.inb_S960x4096_S960x4096_0_0
abbrev rO : Rect S320x512 := Rect.unit (s := S320x512) ![0, 0] S320x512.size Gen.inb_S320x512_S320x512_0_0

/-- What the output window's buffer holds after the body: its one store, of the body's value on the two loaded blocks. -/
def out2 (x0 : Vec F S960x4096 .bf16) (x1 : Vec F S512x4096 .f32) : Vec F S320x512 .f32 :=
  View.canon [⟨rO, k0_pay1 (View.ld x1 rW) (View.ld x0 rC)⟩]

/-- The one store covers the buffer. -/
theorem cover2 (p0 : Vec F S320x512 .f32) (y : S320x512.Idx) :
    ∃ pc ∈ ([⟨rO, p0⟩] : List (View.Piece (Elt F) S320x512 .f32)), y ∈ pc.1.set :=
  View.cover_of_tiled [⟨rO, p0⟩] S320x512.size (by rfl) y

/-! ## The body's triple -/

set_option maxHeartbeats 1000000 in
/-- The body on whole staging buffers, the inputs' at contents `x0`, `x1` and the output's at anything, ends with the
    inputs' as they were and the output's at `out2 x0 x1`. -/
theorem sound_kernel (c : Dev nD) (E : Set ℕ) (i : grid0.Coords) (arg1 : Memref sig .tc .vmem S960x4096 .bf16) (harg1 : arg1.IsWhole) (arg2 : Memref sig .tc .vmem S512x4096 .f32) (harg2 : arg2.IsWhole) (arg3 : Memref sig .tc .vmem S320x512 .f32) (harg3 : arg3.IsWhole)
    (x0 : Vec F S960x4096 .bf16) (x1 : Vec F S512x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The arrays as the region finds them; after the body at point `t` each input's buffer at its block and the output's
    at `out2` of the two blocks; nothing else is used and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every array of the pipeline holds what
    its write-backs leave and every other buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRealValued.lean ====
/-
  Extended reals that are real numbers.

  The arithmetic of the extended reals is the arithmetic of the reals away from the infinities: sums, products and
  maxima of real values are real values, and so is a finite sum of them.  One law of subtraction that fails at the
  infinities holds as soon as the MIDDLE term is real: `a - (b + c) = (a - b) - c`.  It is the law that turns a
  log-softmax written `x - (m + log s)` into the one written `(x - m) - log s`.
-/
import Idealize.ShloMosaic.PureOps.Ideal

open scoped BigOperators

namespace Cert.RealValued

/-- An extended real that is the image of a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) : IsReal (if p then x else y) := by
  split
  · exact hx
  · exact hy

/-- A finite sum of real values is a real value. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The maximum of real values over a nonempty finite family, folded from the bottom element, is a real value. -/
theorem IsReal.fold_max {ι : Type*} (s : Finset ι) (f : ι → EReal) (hs : s.Nonempty) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    induction t using Finset.induction_on with
    | empty => intro _; exact Or.inl ⟨rfl, Finset.fold_empty⟩
    | insert a t ha ih =>
      intro ht
      rw [Finset.fold_insert ha]
      rcases ih (fun i hi => ht i (Finset.mem_insert_of_mem hi)) with ⟨_, e⟩ | hr
      · rw [e, max_bot_right]; exact Or.inr (ht a (Finset.mem_insert_self a t))
      · exact Or.inr ((ht a (Finset.mem_insert_self a t)).max hr)
  rcases key s h with ⟨e, _⟩ | hr
  · exact absurd e hs.ne_empty
  · exact hr

/-- Subtracting a sum whose first term is real: the subtraction distributes. -/
theorem sub_add_eq_sub_sub_of_isReal (a c : EReal) {b : EReal} (hb : IsReal b) : a - (b + c) = a - b - c := by
  rw [sub_eq_add_neg, sub_eq_add_neg, sub_eq_add_neg, EReal.neg_add (Or.inl hb.ne_bot) (Or.inl hb.ne_top), sub_eq_add_neg,
    add_assoc]

end Cert.RealValued
-- ==== Proof.Cosine.lean ====
/-
  Multi-perspective cosine distance, entry by entry.

  For a batch `b`, a position `s` and a perspective `k`, write `w d = W[k,d]²` and `q₉ = q[b,9,·]` (the last position of
  `q`).  Three contractions over the feature axis,
    `X = Σ_d w d · (p[b,s,d] · q₉[d])`,   `A = Σ_d w d · p[b,s,d]²`,   `B = Σ_d q₉[d]² · w d`,
  give the distance  `−X / (√A · √B · 4096)`.  The same number is `X · A^(−1/2) · B^(−1/2) · (−1/4096)` as soon as
  `X`, `A`, `B` are real numbers and `A`, `B` are positive: every factor is then a real number and the identity is one
  of the field of reals.  (At `A = 0` the two spellings part: the quotient is `0 / 0`, the product `0 · ∞`.)
-/
import proofs.«160408_j48481590837593_2_alg».proof.Proof.LibRealValued
import Idealize.ShloMosaic.PureOps.Ideal
import Idealize.ShloMosaic.Lib.ValueIdx

noncomputable section

namespace Cert.Cosine

open Idealize.ShloMosaic Idealize.ShloMosaic.ValueIdx Cert.RealValued
open scoped BigOperators

abbrev SP : Shape := ⟨3, ![32, 10, 4096]⟩
abbrev SW : Shape := ⟨2, ![8192, 4096]⟩
abbrev SD : Shape := ⟨3, ![32, 8192, 10]⟩

/-- `X`: the weighted inner product of `p[b,s,·]` with the last position of `q[b]`. -/
def dotW (p q : SP.Idx → EReal) (W : SW.Idx → EReal) (b : Fin 32) (k : Fin 8192) (s : Fin 10) : EReal :=
  ∑ d : Fin 4096, (W (ix2 k d) * W (ix2 k d)) * (p (ix3 b s d) * q (ix3 b 9 d))

/-- `A`: the weighted squared norm of `p[b,s,·]`. -/
def sqP (p : SP.Idx → EReal) (W : SW.Idx → EReal) (b : Fin 32) (k : Fin 8192) (s : Fin 10) : EReal :=
  ∑ d : Fin 4096, (W (ix2 k d) * W (ix2 k d)) * (p (ix3 b s d) * p (ix3 b s d))

/-- `B`: the weighted squared norm of the last position of `q[b]`. -/
def sqQ (q : SP.Idx → EReal) (W : SW.Idx → EReal) (b : Fin 32) (k : Fin 8192) : EReal :=
  ∑ d : Fin 4096, (q (ix3 b 9 d) * q (ix3 b 9 d)) * (W (ix2 k d) * W (ix2 k d))

/-- The pattern of `4096.0` denotes the real `4096`. -/
theorem ofBits_4096 : Ideal.ofBits .f32 0x45800000#32 = ((4096 : ℝ) : EReal) := by
  simp [Ideal.ofBits, Ideal.ieee, -EReal.coe_mul]; norm_num

/-- The pattern of `-2.44140625e-4` denotes the real `-(1/4096)`. -/
theorem ofBits_negInv4096 : Ideal.ofBits .f32 0xB9800000#32 = ((-(1 / 4096) : ℝ) : EReal) := by
  simp [Ideal.ofBits, Ideal.ieee, -EReal.coe_mul]; norm_num

/-- The distance as a quotient by the product of the two norms and the feature count. -/
def quotEntry (x a b : EReal) : EReal :=
  Ideal.div (-x) (Ideal.sqrt a * Ideal.sqrt b * Ideal.ofBits .f32 0x45800000#32)

/-- The distance as a product with the two inverse square roots and `-(1/4096)`. -/
def prodEntry (x a b : EReal) : EReal :=
  x * Ideal.rsqrt a * Ideal.rsqrt b * Ideal.ofBits .f32 0xB9800000#32

/-- For real `x` and positive real `a`, `b` the product form and the quotient form are one real number. -/
theorem prodEntry_eq_quotEntry {x a b : EReal} (hx : IsReal x) (ha : IsReal a) (hb : IsReal b) (ha0 : 0 < a) (hb0 : 0 < b) :
    prodEntry x a b = quotEntry x a b := by
  obtain ⟨x, rfl⟩ := hx; obtain ⟨a, rfl⟩ := ha; obtain ⟨b, rfl⟩ := hb
  have ha' : 0 < a := EReal.coe_pos.mp ha0
  have hb' : 0 < b := EReal.coe_pos.mp hb0
  have hsa : 0 < Real.sqrt a := Real.sqrt_pos.mpr ha'
  have hsb : 0 < Real.sqrt b := Real.sqrt_pos.mpr hb'
  have hden : Real.sqrt a * Real.sqrt b * 4096 ≠ 0 := by positivity
  unfold prodEntry quotEntry
  rw [Ideal.rsqrt_coe, if_neg (not_lt.mpr ha'.le), if_neg ha'.ne', Ideal.rsqrt_coe, if_neg (not_lt.mpr hb'.le),
    if_neg hb'.ne', Ideal.sqrt_coe, if_neg (not_lt.mpr ha'.le), Ideal.sqrt_coe, if_neg (not_lt.mpr hb'.le),
    ofBits_4096, ofBits_negInv4096]
  rw [← EReal.coe_neg, ← EReal.coe_mul, ← EReal.coe_mul, ← EReal.coe_mul, ← EReal.coe_mul, ← EReal.coe_mul,
    Ideal.div_coe hden, ← EReal.coe_mul]
  refine congrArg _ ?_
  field_simp

/-- The quotient form over the whole `[32, 8192, 10]` array. -/
def quotD (p q : SP.Idx → EReal) (W : SW.Idx → EReal) : SD.Idx → EReal := fun j =>
  quotEntry (dotW p q W (j 0) (j 1) (j 2)) (sqP p W (j 0) (j 1) (j 2)) (sqQ q W (j 0) (j 1))

/-- The product form over the whole `[32, 8192, 10]` array. -/
def prodD (p q : SP.Idx → EReal) (W : SW.Idx → EReal) : SD.Idx → EReal := fun j =>
  prodEntry (dotW p q W (j 0) (j 1) (j 2)) (sqP p W (j 0) (j 1) (j 2)) (sqQ q W (j 0) (j 1))

theorem quotD_apply (p q : SP.Idx → EReal) (W : SW.Idx → EReal) (b : Fin 32) (k : Fin 8192) (s : Fin 10) :
    quotD p q W (ix3 b k s) = quotEntry (dotW p q W b k s) (sqP p W b k s) (sqQ q W b k) := rfl

theorem prodD_apply (p q : SP.Idx → EReal) (W : SW.Idx → EReal) (b : Fin 32) (k : Fin 8192) (s : Fin 10) :
    prodD p q W (ix3 b k s) = prodEntry (dotW p q W b k s) (sqP p W b k s) (sqQ q W b k) := rfl

/-- With real inputs and both squared norms positive everywhere, the two arrays are equal. -/
theorem prodD_eq_quotD (p q : SP.Idx → EReal) (W : SW.Idx → EReal)
    (hp : ∀ i, IsReal (p i)) (hq : ∀ i, IsReal (q i)) (hW : ∀ i, IsReal (W i))
    (hA : ∀ b k s, 0 < sqP p W b k s) (hB : ∀ b k, 0 < sqQ q W b k) : prodD p q W = quotD p q W := by
  funext j
  obtain ⟨b, k, s, rfl⟩ : ∃ (b : Fin 32) (k : Fin 8192) (s : Fin 10), j = ix3 b k s := ⟨j 0, j 1, j 2, eq_ix3 j⟩
  rw [prodD_apply, quotD_apply]
  exact prodEntry_eq_quotEntry
    (IsReal.sum _ _ fun d _ => ((hW _).mul (hW _)).mul ((hp _).mul (hq _)))
    (IsReal.sum _ _ fun d _ => ((hW _).mul (hW _)).mul ((hp _).mul (hp _)))
    (IsReal.sum _ _ fun d _ => ((hq _).mul (hq _)).mul ((hW _).mul (hW _)))
    (hA b k s) (hB b k)

end Cert.Cosine

end
-- ==== Proof.KernelPayload.lean ====
/-
  The body's value at an entry.

  The body multiplies the stacked 960 x 4096 operand with the squared 512 x 4096 block of `W` (both along the feature
  axis, into a zero accumulator), cuts the 960 x 512 product into its three 320-row blocks `dot`, `pp`, `qq`, and stores
  `dot · rsqrt pp · rsqrt qq · (−1/4096)`.  At the exact instance the roundings to bf16 are the identity and the product
  into zero is the plain sum, so entry `(n, j)` of the stored block is the product form of the distance on the three
  sums over the feature axis taken from rows `n`, `320 + n`, `640 + n` of the stack and row `j` of the block of `W`.
-/
import proofs.«160408_j48481590837593_2_alg».proof.Proof.Gen.KernelIdeal.Skeleton
import proofs.«160408_j48481590837593_2_alg».proof.Proof.LibMatmul
import proofs.«160408_j48481590837593_2_alg».proof.Proof.Cosine
import Idealize.ShloMosaic.Lib.Pipeline.Value

noncomputable section

namespace Cert.KernelIdeal.Hand

open Idealize.ShloMosaic Idealize.ShloMosaic.ValueIdx Cert.KernelIdeal Cert.KernelIdeal.Gen
open scoped BigOperators

/-- Row `n` of block `o` of the stack's three blocks of 320 rows. -/
def srow (o : Fin 3) (n : Fin 320) : Fin 960 := ⟨o.val * 320 + n.val, by omega⟩

/-- A 320-row cut of a 960 x 512 array read at `(n, j)` is the array at the row the offset names. -/
theorem rowsCut_apply (off : Nat) (v : S960x512.Idx → EReal) (h : S960x512.Slices ![off, 0] S320x512) (n : Fin 320) (j : Fin 512)
    (r : Fin 960) (hr : r.val = off + n.val) : extractStridedSlice S320x512 ![off, 0] v h (ix2 n j) = v (ix2 r j) :=
  extractStridedSlice_apply ![off, 0] v h (ix2 n j) (ix2 r j) fun a => by
    match a with
    | ⟨0, _⟩ => exact hr
    | ⟨1, _⟩ => exact (Nat.zero_add _).symm

/-- Entry `(r, j)` of the product into zero: the sum over the feature axis of stack row `r` against the squared row `j`. -/
theorem prod_apply (x1 : Vec Ideal S512x4096 .f32) (x0 : Vec Ideal S960x4096 .bf16) (r : Fin 960) (j : Fin 512) :
    matmul (F := Ideal) (φ₁ := .bf16) (φ₂ := .bf16) dot_S960x4096_S512x4096_S960x512_1_1_0_0_n_n none
        (shapeCast S960x4096 (x0 : FVec Ideal S960x4096 .bf16) shapeCasts_S960x4096_S960x4096)
        (mulf (truncf .bf16 x1 bitsLt_bf16_f32) (truncf .bf16 x1 bitsLt_bf16_f32))
        (constant S960x512 .f32 0x00000000#32) (ix2 r j)
      = ∑ d : Fin 4096, x0 (ix2 r d) * (x1 (ix2 j d) * x1 (ix2 j d)) := by
  rw [shapeCast_self]
  exact Cert.MatmulAt.matmul_zero_nt_apply (M := 960) (K := 4096) (N := 512)
    dot_S960x4096_S512x4096_S960x512_1_1_0_0_n_n_wf none x0
    (mulf (truncf .bf16 x1 bitsLt_bf16_f32) (truncf .bf16 x1 bitsLt_bf16_f32)) r j

/-- The stored block at `(n, j)`. -/
theorem pay_apply (x1 : Vec Ideal S512x4096 .f32) (x0 : Vec Ideal S960x4096 .bf16) (n : Fin 320) (j : Fin 512) :
    k0_pay1 (F := Ideal) x1 x0 (ix2 n j)
      = Cert.Cosine.prodEntry (∑ d : Fin 4096, x0 (ix2 (srow 0 n) d) * (x1 (ix2 j d) * x1 (ix2 j d)))
          (∑ d : Fin 4096, x0 (ix2 (srow 1 n) d) * (x1 (ix2 j d) * x1 (ix2 j d)))
          (∑ d : Fin 4096, x0 (ix2 (srow 2 n) d) * (x1 (ix2 j d) * x1 (ix2 j d))) := by
  unfold k0_pay1 Cert.Cosine.prodEntry
  show (extractStridedSlice (s := S960x512) S320x512 ![0, 0] _ slices_S960x512_o0_0_S320x512 (ix2 n j)
        * Ideal.rsqrt (extractStridedSlice (s := S960x512) S320x512 ![320, 0] _ slices_S960x512_o320_0_S320x512 (ix2 n j)))
        * Ideal.rsqrt (extractStridedSlice (s := S960x512) S320x512 ![640, 0] _ slices_S960x512_o640_0_S320x512 (ix2 n j))
        * Ideal.ofBits .f32 0xB9800000#32 = _
  rw [rowsCut_apply 0 _ _ n j (srow 0 n) (by simp [srow]), rowsCut_apply 320 _ _ n j (srow 1 n) (by simp [srow]),
    rowsCut_apply 640 _ _ n j (srow 2 n) (by simp [srow]), prod_apply, prod_apply, prod_apply]

end Cert.KernelIdeal.Hand

end
-- ==== Proof.KernelStack.lean ====
/-
  The stacked operand, entry by entry.

  The host operations before the region cut out the last position of `q` (a 32 x 4096 array `q₉`), form the three
  products `p · q₉` (with `q₉` repeated along the position axis), `p · p` and `q₉ · q₉` (repeated likewise), flatten
  each to 320 rows (row `10 b + s` is batch `b`, position `s`), lay the three 320-row blocks one under the other and
  round.  At the exact instance the rounding is the identity, so rows `10 b + s`, `320 + 10 b + s`, `640 + 10 b + s`
  of the stack hold `p[b,s,·] · q[b,9,·]`, `p[b,s,·]²` and `q[b,9,·]²`.
-/
import proofs.«160408_j48481590837593_2_alg».proof.Proof.Gen.KernelIdeal
import proofs.«160408_j48481590837593_2_alg».proof.Proof.KernelPayload
import Idealize.ShloMosaic.Lib.Pipeline.Value
import Idealize.ShloMosaic.Lib.ValueIdx
import Idealize.ShloMosaic.PureOps.Ideal

noncomputable section

namespace Cert.KernelIdeal.Hand

open Idealize.ShloMosaic Idealize.ShloMosaic.ValueIdx Cert.KernelIdeal Cert.KernelIdeal.Facts₀

variable {F : FTy → Type} [FloatOps F]

/-- The last position of `q`, as a 32 x 4096 array. -/
def qLast (q : FVec F S32x10x4096 .f32) : FVec F S32x4096 .f32 :=
  shapeCast S32x4096 (extractStridedSlice S32x1x4096 ![0, 9, 0] q slices_S32x10x4096_S32x1x4096_0_9_0) shapeCasts_S32x1x4096_S32x4096

/-- The first block: `p` times the last position of `q`, flattened to 320 rows. -/
def blockPQ (p q : FVec F S32x10x4096 .f32) : FVec F S320x4096 .f32 :=
  shapeCast S320x4096 (mulf p (broadcastInDim S32x10x4096 ![0, 1, 2] bcast_S32x1x4096_S32x10x4096_0_1_2
    (broadcastInDim S32x1x4096 ![0, 2] bcast_S32x4096_S32x1x4096_0_2 (qLast q)))) shapeCasts_S32x10x4096_S320x4096

/-- The second block: `p` squared. -/
def blockPP (p : FVec F S32x10x4096 .f32) : FVec F S320x4096 .f32 :=
  shapeCast S320x4096 (mulf p p) shapeCasts_S32x10x4096_S320x4096

/-- The third block: the last position of `q` squared, repeated along the position axis. -/
def blockQQ (q : FVec F S32x10x4096 .f32) : FVec F S320x4096 .f32 :=
  shapeCast S320x4096 (broadcastInDim S32x10x4096 ![0, 2] bcast_S32x4096_S32x10x4096_0_2 (mulf (qLast q) (qLast q)))
    shapeCasts_S32x10x4096_S320x4096

/-- The three blocks one under the other, rounded. -/
def stack (p q : FVec F S32x10x4096 .f32) : FVec F S960x4096 .bf16 :=
  truncf .bf16 (concatenate S960x4096 0 [⟨S320x4096, blockPQ p q⟩, ⟨S320x4096, blockPP p⟩, ⟨S320x4096, blockQQ q⟩]
    concatenates_S320x4096_S320x4096_S320x4096_S960x4096_d0) bitsLt_bf16_f32

/-- Row `10 b + s` of a 320-row block. -/
def frow (b : Fin 32) (s : Fin 10) : Fin 320 := ⟨b.val * 10 + s.val, by omega⟩

section AtIdeal

theorem qLast_apply (q : FVec Ideal S32x10x4096 .f32) (b : Fin 32) (d : Fin 4096) : qLast q (ix2 b d) = q (ix3 b 9 d) := by
  unfold qLast
  rw [shapeCast_apply _ _ (ix2 b d) (ix3 b (0 : Fin 1) d) (by rw [Shape.rowMajor_val_three, Shape.rowMajor_val_two]; simp)]
  exact extractStridedSlice_apply (s := S32x10x4096) (t := S32x1x4096) ![0, 9, 0] q _ (ix3 b (0 : Fin 1) d) (ix3 b (9 : Fin 10) d) fun a => by
    match a with
    | ⟨0, _⟩ => exact (Nat.zero_add _).symm
    | ⟨1, _⟩ => rfl
    | ⟨2, _⟩ => exact (Nat.zero_add _).symm

/-- Flattening the batch and position axes: row `10 b + s`. -/
theorem flat_apply (x : FVec Ideal S32x10x4096 .f32) (b : Fin 32) (s : Fin 10) (d : Fin 4096) :
    shapeCast S320x4096 x shapeCasts_S32x10x4096_S320x4096 (ix2 (frow b s) d) = x (ix3 b s d) :=
  shapeCast_apply _ _ (ix2 (frow b s) d) (ix3 b s d) (by rw [Shape.rowMajor_val_three, Shape.rowMajor_val_two]; simp [frow])

theorem blockPQ_apply (p q : FVec Ideal S32x10x4096 .f32) (b : Fin 32) (s : Fin 10) (d : Fin 4096) :
    blockPQ p q (ix2 (frow b s) d) = p (ix3 b s d) * q (ix3 b 9 d) := by
  unfold blockPQ
  rw [flat_apply]
  show p (ix3 b s d) * _ = _
  refine congrArg _ ?_
  rw [broadcastInDim_apply _ _ _ (ix3 b s d) (ix3 b (0 : Fin 1) d) (fun a => by
      match a with
      | ⟨0, _⟩ => rfl
      | ⟨1, _⟩ => rfl
      | ⟨2, _⟩ => rfl),
    broadcastInDim_apply _ _ _ (ix3 b (0 : Fin 1) d) (ix2 b d) (fun a => by
      match a with
      | ⟨0, _⟩ => rfl
      | ⟨1, _⟩ => rfl)]
  exact qLast_apply q b d

theorem blockPP_apply (p : FVec Ideal S32x10x4096 .f32) (b : Fin 32) (s : Fin 10) (d : Fin 4096) :
    blockPP p (ix2 (frow b s) d) = p (ix3 b s d) * p (ix3 b s d) := by
  unfold blockPP
  rw [flat_apply]
  rfl

theorem blockQQ_apply (q : FVec Ideal S32x10x4096 .f32) (b : Fin 32) (s : Fin 10) (d : Fin 4096) :
    blockQQ q (ix2 (frow b s) d) = q (ix3 b 9 d) * q (ix3 b 9 d) := by
  unfold blockQQ
  rw [flat_apply, broadcastInDim_apply _ _ _ (ix3 b s d) (ix2 b d) (fun a => by
      match a with
      | ⟨0, _⟩ => rfl
      | ⟨1, _⟩ => rfl)]
  show qLast q (ix2 b d) * qLast q (ix2 b d) = _
  rw [qLast_apply]

/-- Row `n` of block `o` of the stack is row `n` of that block. -/
theorem stack_apply (p q : FVec Ideal S32x10x4096 .f32) (o : Fin 3) (n : Fin 320) (d : Fin 4096) :
    stack p q (ix2 (srow o n) d) = (![blockPQ p q, blockPP p, blockQQ q] : Fin 3 → FVec Ideal S320x4096 .f32) o (ix2 n d) := by
  unfold stack
  show concatenate S960x4096 0 (List.ofFn fun k : Fin 3 => (⟨S320x4096, (![blockPQ p q, blockPP p, blockQQ q] : Fin 3 → FVec Ideal S320x4096 .f32) k⟩ : (s : Shape) × (s.Idx → EReal)))
    concatenates_S320x4096_S320x4096_S320x4096_S960x4096_d0 (ix2 (srow o n) d) = _
  refine concatenate_ofFn_apply (t := S960x4096) (s₁ := S320x4096) (0 : Fin 2) _ _ rfl 320 rfl (ix2 (srow o n) d) o ?_ (ix2 n d) ?_ ?_
  · show (o.val * 320 + n.val) / 320 = o.val
    have := n.isLt; omega
  · show n.val = (o.val * 320 + n.val) % 320
    have := n.isLt; omega
  · intro a ha
    match a with
    | ⟨0, _⟩ => exact absurd rfl ha
    | ⟨1, _⟩ => rfl

end AtIdeal

end Cert.KernelIdeal.Hand

end
-- ==== Proof.KernelValue.lean ====
/-
  The kernel's result array, entry by entry.

  The region's 320 x 8192 result is written back in sixteen column blocks of 512 columns; point `t` writes, at
  `(n, j)` of its block, the product form of the distance on the sums over the feature axis of stack rows `n`,
  `320 + n`, `640 + n` against the squared row `512 t + j` of `W`.  Every column lies in exactly one point's block
  (point `column / 512`), so the whole array is one function (`regionOut`) of the stack and `W` as the region finds them.
  The stack is the three row blocks `p · q₉`, `p · p`, `q₉ · q₉`; the host operations after the region read the result as
  `[32, 10, 8192]`, exchange the last two axes and flatten again.  Entry `(b, k, s)` of the exchanged array is therefore
  the product form on `X(b,k,s)`, `A(b,k,s)`, `B(b,k)` — commuting the two factors inside the first two sums — and the
  kernel's result is the flattening of `Cert.Cosine.prodD` of the three arguments.
-/
import proofs.«160408_j48481590837593_2_alg».proof.Proof.KernelIdealFrame
import proofs.«160408_j48481590837593_2_alg».proof.Proof.KernelStack
import Idealize.ShloMosaic.Lib.StableHlo.Run
import Idealize.ShloMosaic.Lib.Pipeline.Value
import Idealize.ShloMosaic.PureOps.Ideal

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-! ## The arrays as the region finds them -/

/-- The region finds the stack of the first two arguments in its first window's array. -/
theorem V_stack (c : Dev nD) : (V m c main_v12 : S960x4096.Idx → EReal)
    = stack (F := Ideal) (m ((c : Thread nD τ).loc main_arg0)) (m ((c : Thread nD τ).loc main_arg1)) := by
  show StableHlo.after hostOps0 (fun b => m (c, b)) (Proc.devRef .tc main_v12) = _
  after_results
  rfl

/-! ## The region's result as one function of the stack and `W` -/

/-- Row `512 t + j` of `W`: row `j` of the block fetched at point `t`. -/
def wrow (t : Fin cfg0.N) (j : Fin 512) : Fin 8192 :=
  ⟨t.val * 512 + j.val, by have h : t.val < 16 := lt_of_lt_of_eq t.isLt N_0; have := j.isLt; omega⟩

/-- Entry `(n, k)` of the region's result: the product form on the three sums of stack rows `n`, `320 + n`, `640 + n`
    against the squared row `k` of `W`. -/
def regionOut (C : S960x4096.Idx → EReal) (Wm : S8192x4096.Idx → EReal) : S320x8192.Idx → EReal := fun i =>
  Cert.Cosine.prodEntry (∑ d : Fin 4096, C (ix2 (srow 0 (i 0)) d) * (Wm (ix2 (i 1) d) * Wm (ix2 (i 1) d)))
    (∑ d : Fin 4096, C (ix2 (srow 1 (i 0)) d) * (Wm (ix2 (i 1) d) * Wm (ix2 (i 1) d)))
    (∑ d : Fin 4096, C (ix2 (srow 2 (i 0)) d) * (Wm (ix2 (i 1) d) * Wm (ix2 (i 1) d)))

theorem regionOut_apply (C : S960x4096.Idx → EReal) (Wm : S8192x4096.Idx → EReal) (n : Fin 320) (k : Fin 8192) :
    regionOut C Wm (ix2 n k)
      = Cert.Cosine.prodEntry (∑ d : Fin 4096, C (ix2 (srow 0 n) d) * (Wm (ix2 k d) * Wm (ix2 k d)))
          (∑ d : Fin 4096, C (ix2 (srow 1 n) d) * (Wm (ix2 k d) * Wm (ix2 k d)))
          (∑ d : Fin 4096, C (ix2 (srow 2 n) d) * (Wm (ix2 k d) * Wm (ix2 k d))) := rfl

theorem hz : (![0, 0] : Fin 2 → Nat) = fun _ => 0 := funext fun a => by fin_cases a <;> rfl

/-- The block indices over the grid: the stack's is always `(0, 0)`, `W`'s is `(t, 0)`, the result's `(0, t)`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The stack's block at any point is the whole stack. -/
theorem blk0_apply (c : Dev nD) (t : Fin cfg0.N) (r : Fin 960) (d : Fin 4096) :
    iblk m c 0 t (ix2 r d) = V m c main_v12 (ix2 r d) := by
  obtain ⟨e0, e1, -, -, -, -⟩ := idx_facts t
  show V m c main_v12 (((cfg0.win 0).blk t).view.emb (ix2 r d)) = _
  refine congrArg _ (funext fun a => Fin.ext ?_)
  match a with
  | ⟨0, _⟩ => show win0_0.index t (0 : Fin 2) * 960 + 1 * r.val = r.val; omega
  | ⟨1, _⟩ => show win0_0.index t (1 : Fin 2) * 4096 + 1 * d.val = d.val; omega

/-- Row `j` of `W`'s block at point `t` is row `512 t + j` of `W`. -/
theorem blk1_apply (c : Dev nD) (t : Fin cfg0.N) (j : Fin 512) (d : Fin 4096) :
    iblk m c 1 t (ix2 j d) = V m c main_arg2 (ix2 (wrow t j) d) := by
  obtain ⟨-, -, e2, e3, -, -⟩ := idx_facts t
  show V m c main_arg2 (((cfg0.win 1).blk t).view.emb (ix2 j d)) = _
  refine congrArg _ (funext fun a => Fin.ext ?_)
  match a with
  | ⟨0, _⟩ => show win0_1.index t (0 : Fin 2) * 512 + 1 * j.val = t.val * 512 + j.val; omega
  | ⟨1, _⟩ => show win0_1.index t (1 : Fin 2) * 4096 + 1 * d.val = d.val; omega

/-- Entry `(n, j)` of the result's block at point `t` is entry `(n, 512 t + j)` of the array. -/
theorem emb2_apply (t : Fin cfg0.N) (n : Fin 320) (j : Fin 512) :
    ((cfg0.win 2).blk t).view.emb (ix2 n j) = ix2 n (wrow t j) := by
  obtain ⟨-, -, -, -, e4, e5⟩ := idx_facts t
  refine funext fun a => Fin.ext ?_
  match a with
  | ⟨0, _⟩ => show win0_2.index t (0 : Fin 2) * 320 + 1 * n.val = n.val; omega
  | ⟨1, _⟩ => show win0_2.index t (1 : Fin 2) * 512 + 1 * j.val = t.val * 512 + j.val; omega

/-- What point `t` writes back is block `t` of `regionOut` of the stack and `W` as the region finds them. -/
theorem flushed_eq (c : Dev nD) (t : Fin cfg0.N) :
    (dats m 0 c).flushed 2 t = ((cfg0.win 2).blk t).view.read (Elt Ideal) (regionOut (V m c main_v12) (V m c main_arg2)) := by
  show (cfg0.win 2).cut (grid0.coords t) ((dats m 0 c).after 2 t) = _
  rw [after2]
  unfold out2
  rw [View.canon_unit_zero hz]
  simp only [View.ld_unit_zero (S := S512x4096) hz, View.ld_unit_zero (S := S960x4096) hz]
  funext y
  have hy : ∃ (n : Fin 320) (j : Fin 512), (y : S320x512.Idx) = ix2 n j := ⟨y 0, y 1, eq_ix2 (n0 := 320) (n1 := 512) y⟩
  obtain ⟨n, j, rfl⟩ := hy
  show k0_pay1 (F := Ideal) (iblk m c 1 t) (iblk m c 0 t) (ix2 n j)
    = regionOut (V m c main_v12) (V m c main_arg2) (((cfg0.win 2).blk t).view.emb (ix2 n j))
  rw [emb2_apply t n j, regionOut_apply]
  refine (pay_apply (iblk m c 1 t) (iblk m c 0 t) n j).trans ?_
  simp only [blk0_apply, blk1_apply]

/-- An index is in point `t`'s block iff each coordinate is in the block's range. -/
theorem mem_blk2 (t : Fin cfg0.N) (i : S320x8192.Idx) :
    i ∈ ((cfg0.win 2).blk t).view.set ↔ ∀ a : Fin 2, win0_2.index t a * S320x512.size a ≤ (i a).val ∧ (i a).val < win0_2.index t a * S320x512.size a + S320x512.size a := by
  show i ∈ ((View.whole main_v13).slice (win0_2.rect t)).set ↔ _
  rw [View.set_slice_whole, Rect.mem_set_unit]
  exact Iff.rfl

/-- Every index of the result lies in the block of the point its column over 512 names. -/
theorem covered (i : S320x8192.Idx) : ∃ t : Fin cfg0.N, (cfg0.win 2).flush t = true ∧ i ∈ ((cfg0.win 2).blk t).view.set := by
  have hi0 : (i 0).val < 320 := (i 0).isLt
  have hi1 : (i 1).val < 8192 := (i 1).isLt
  have hN : cfg0.N = 16 := N_0
  let t : Fin cfg0.N := ⟨(i 1).val / 512, by rw [hN]; omega⟩
  have ht : t.val = (i 1).val / 512 := rfl
  obtain ⟨-, -, -, -, e4, e5⟩ := idx_facts t
  refine ⟨t, flush0_2 t, ?_⟩
  rw [mem_blk2]
  intro a
  match a with
  | ⟨0, _⟩ => show win0_2.index t (0 : Fin 2) * 320 ≤ (i 0).val ∧ (i 0).val < win0_2.index t (0 : Fin 2) * 320 + 320; omega
  | ⟨1, _⟩ => show win0_2.index t (1 : Fin 2) * 512 ≤ (i 1).val ∧ (i 1).val < win0_2.index t (1 : Fin 2) * 512 + 512; omega

/-- The region's result array after the run. -/
theorem final2 (c : Dev nD) : (dats m 0 c).arrAt 2 cfg0.N = regionOut (V m c main_v12) (V m c main_arg2) :=
  (dats m 0 c).arrAt_eq_of_cover 2 _ (fun t _ => flushed_eq m c t) covered

/-! ## The host operations after the region -/

/-- The result buffer after the three operations: the region's array read as `[32, 10, 8192]`, its last two axes
    exchanged, flattened back. -/
theorem tail_eq (c : Dev nD) : (Pipeline.afterTail₀ cfgs (dats m) 0 (V0 m) [hostOps1] c main_v16 : S32x10x8192.Idx → EReal)
    = shapeCast S32x10x8192 (transpose S32x8192x10 [0, 2, 1] (shapeCast S32x10x8192 ((dats m 0 c).arrAt 2 cfg0.N)
        shapeCasts_S320x8192_S32x10x8192) transposes_S32x10x8192_S32x8192x10_0_2_1) shapeCasts_S32x8192x10_S32x10x8192 := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v13)
      = (dats m 0 c).arrAt 2 cfg0.N :=
    Pipeline.withArrays_arr spec0 launch0.win.arr_inj c (V0 m c) (fun w => (dats m 0 c).arrAt w (cfgs 0).N) 2
  show shapeCast S32x10x8192 (transpose S32x8192x10 [0, 2, 1] (shapeCast S32x10x8192
      (Pipeline.withArrays (cfgs 0).spec c (V0 m c) (fun w => (dats m 0 c).arrAt w (cfgs 0).N) (Proc.devRef .tc main_v13))
      shapeCasts_S320x8192_S32x10x8192) transposes_S32x10x8192_S32x8192x10_0_2_1) shapeCasts_S32x8192x10_S32x10x8192 = _
  rw [e]

/-! ## The exchanged array is the product form of the distance -/

theorem relaid_eq (p q : FVec Ideal S32x10x4096 .f32) (W : FVec Ideal S8192x4096 .f32) :
    transpose S32x8192x10 [0, 2, 1] (shapeCast S32x10x8192 (regionOut (stack p q) W) shapeCasts_S320x8192_S32x10x8192)
        transposes_S32x10x8192_S32x8192x10_0_2_1
      = Cert.Cosine.prodD p q W := by
  funext i
  obtain ⟨b, k, s, rfl⟩ : ∃ (b : Fin 32) (k : Fin 8192) (s : Fin 10), i = ix3 b k s := ⟨i 0, i 1, i 2, eq_ix3 i⟩
  rw [transpose_apply _ _ _ (ix3 b k s) (ix3 b s k) (fun a => by
      match a with
      | ⟨0, _⟩ => rfl
      | ⟨1, _⟩ => rfl
      | ⟨2, _⟩ => rfl),
    shapeCast_apply _ _ (ix3 b s k) (ix2 (frow b s) k) (by rw [Shape.rowMajor_val_three, Shape.rowMajor_val_two]; simp [frow]),
    regionOut_apply, Cert.Cosine.prodD_apply]
  unfold Cert.Cosine.dotW Cert.Cosine.sqP Cert.Cosine.sqQ
  refine congr (congr (congrArg Cert.Cosine.prodEntry ?_) ?_) ?_
  · refine Finset.sum_congr rfl fun d _ => ?_
    rw [stack_apply]
    show blockPQ p q (ix2 (frow b s) d) * _ = _
    rw [blockPQ_apply]
    exact mul_comm _ _
  · refine Finset.sum_congr rfl fun d _ => ?_
    rw [stack_apply]
    show blockPP p (ix2 (frow b s) d) * _ = _
    rw [blockPP_apply]
    exact mul_comm _ _
  · refine Finset.sum_congr rfl fun d _ => ?_
    rw [stack_apply]
    show blockQQ q (ix2 (frow b s) d) * _ = _
    rw [blockQQ_apply]

/-- The result buffer after the run is the flattening of the product form of the three arguments. -/
theorem result_eq (c : Dev nD) : (Pipeline.afterTail₀ cfgs (dats m) 0 (V0 m) [hostOps1] c main_v16 : S32x10x8192.Idx → EReal)
    = shapeCast S32x10x8192 (Cert.Cosine.prodD (m ((c : Thread nD τ).loc main_arg0)) (m ((c : Thread nD τ).loc main_arg1))
        (m ((c : Thread nD τ).loc main_arg2))) shapeCasts_S32x8192x10_S32x10x8192 := by
  rw [tail_eq, final2, V_stack, V_main_arg2, relaid_eq]

/-! ## The run, read -/

/-- Every weakly fair execution of the idealized kernel's @main terminates without a fault, with the result buffer at
    the flattened product form of the arguments and the arguments unchanged. -/
theorem run_prod : θ_run defs (onTc (τ := τ) (main (F := Ideal))) ⟨m, fun _ => 0, ρ⟩ (fun r => ∀ c : Dev nD,
      r.2.mem ((c.tc : Thread nD τ).loc main_v16)
        = shapeCast S32x10x8192 (Cert.Cosine.prodD (m ((c.tc : Thread nD τ).loc main_arg0)) (m ((c.tc : Thread nD τ).loc main_arg1))
            (m ((c.tc : Thread nD τ).loc main_arg2))) shapeCasts_S32x8192x10_S32x10x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩) (run_main m ρ)

end Cert.KernelIdeal.Hand

end
-- ==== Proof.RefStages.lean ====
/-
  The reference program, stage by stage, read at one entry.

  The reference takes the last position of `q` (the slice `[0:32, 9:10, 0:4096]`, reshaped to `[32, 4096]`), spreads it
  over the ten positions of `p`, and forms three contractions over the feature axis `d` with the squared weights
  `W[k,d]²`:  `X[k,b,s] = Σ_d W[k,d]² · (p[b,s,d] · q[b,9,d])`,  `A[k,b,s] = Σ_d W[k,d]² · p[b,s,d]²`  (both produced as
  `[8192, 32, 10]` and transposed to `[32, 8192, 10]`)  and  `B[b,k] = Σ_d q[b,9,d]² · W[k,d]²`.  Entry `(b, k, s)` of its
  last array before the final reshape is  `−X / (√A · √B · 4096)`,  with `√B` spread along the position axis and `4096`
  a constant array.  Each lemma below reads one of these stages at coordinates `b`, `k`, `s`, `d`; the factors of every sum
  appear in the order the reference multiplies them, so no product is commuted.
-/
import proofs.«160408_j48481590837593_2_alg».proof.Proof.Gen.ReferenceIdeal.Read
import proofs.«160408_j48481590837593_2_alg».proof.Proof.Cosine

noncomputable section

namespace Cert.ReferenceIdeal.RefValue

open Cert.ReferenceIdeal Cert.ReferenceIdeal.Gen Cert.ReferenceIdeal.Read Idealize.ShloMosaic Idealize.ShloMosaic.ValueIdx Cert.Cosine
open scoped BigOperators

/-- An array of the shape of `p` and `q`, with extended-real entries. -/
abbrev VP := (⟨S32x10x4096, .f32⟩ : BufTy).Contents (Elt Ideal)
/-- An array of the shape of `W`, with extended-real entries. -/
abbrev VW := (⟨S8192x4096, .f32⟩ : BufTy).Contents (Elt Ideal)

/-- The slice `[0:32, 9:10, 0:4096]` of `q`, reshaped to `[32, 4096]`, holds `q[b, 9, d]` at `(b, d)`: the flat position
    `b · 4096 + d` of the reshape splits back into `b` and `d`, and the slice starts at position `9`. -/
theorem ref_lastRow (q : VP) (b : Fin 32) (d : Fin 4096) :
    val_main_v2 (F := Ideal) q (ix2 b d) = q (ix3 b 9 d) := by
  rw [val_main_v2_apply, val_main_v1_apply]
  refine congrArg q (funext fun a => Fin.ext ?_)
  match a with
  | ⟨0, _⟩ => show (b.val * 4096 + d.val) / 4096 = b.val; omega
  | ⟨1, _⟩ => rfl
  | ⟨2, _⟩ => show (b.val * 4096 + d.val) % 4096 = d.val; omega

/-- `p` times the last position of `q` spread over every position: `p[b,s,d] · q[b,9,d]`. -/
theorem ref_pq (p q : VP) (b : Fin 32) (s : Fin 10) (d : Fin 4096) :
    val_main_v5 (F := Ideal) p q (ix3 b s d) = p (ix3 b s d) * q (ix3 b 9 d) := by
  rw [val_main_v5_apply, val_main_v4_apply, val_main_v3_apply, Ideal.mulf_def]
  have e : idx_main_v3 (idx_main_v4 (ix3 b s d)) = ix2 b d :=
    funext fun a => Fin.ext (by match a with | ⟨0, _⟩ => rfl | ⟨1, _⟩ => rfl)
  rw [e, ref_lastRow]

/-- The first contraction, transposed to `[32, 8192, 10]`, is `X`: the weighted inner product of `p[b,s,·]` with `q[b,9,·]`. -/
theorem ref_dotW (p q : VP) (W : VW) (b : Fin 32) (k : Fin 8192) (s : Fin 10) :
    val_main_v7 (F := Ideal) p q W (ix3 b k s) = dotW p q W b k s := by
  rw [val_main_v7_apply, val_main_v6_apply]
  unfold dotW
  refine Finset.sum_congr rfl fun d _ => ?_
  have el : lidx_main_v6 (idx_main_v7 (ix3 b k s)) d = ix2 k d :=
    funext fun a => Fin.ext (by match a with | ⟨0, _⟩ => rfl | ⟨1, _⟩ => rfl)
  have er : ridx_main_v6 (idx_main_v7 (ix3 b k s)) d = ix3 b s d :=
    funext fun a => Fin.ext (by match a with | ⟨0, _⟩ => rfl | ⟨1, _⟩ => rfl | ⟨2, _⟩ => rfl)
  rw [el, er, val_main_v0_apply, Ideal.mulf_def, ref_pq]

/-- The second contraction, transposed to `[32, 8192, 10]`, is `A`: the weighted squared norm of `p[b,s,·]`. -/
theorem ref_sqP (p : VP) (W : VW) (b : Fin 32) (k : Fin 8192) (s : Fin 10) :
    val_main_v10 (F := Ideal) p W (ix3 b k s) = sqP p W b k s := by
  rw [val_main_v10_apply, val_main_v9_apply]
  unfold sqP
  refine Finset.sum_congr rfl fun d _ => ?_
  have el : lidx_main_v9 (idx_main_v10 (ix3 b k s)) d = ix2 k d :=
    funext fun a => Fin.ext (by match a with | ⟨0, _⟩ => rfl | ⟨1, _⟩ => rfl)
  have er : ridx_main_v9 (idx_main_v10 (ix3 b k s)) d = ix3 b s d :=
    funext fun a => Fin.ext (by match a with | ⟨0, _⟩ => rfl | ⟨1, _⟩ => rfl | ⟨2, _⟩ => rfl)
  rw [el, er, val_main_v0_apply, val_main_v8_apply, Ideal.mulf_def, Ideal.mulf_def]

/-- The third contraction is `B`: the weighted squared norm of `q[b,9,·]`, the square of `q` on the left of each term. -/
theorem ref_sqQ (q : VP) (W : VW) (b : Fin 32) (k : Fin 8192) :
    val_main_v13 (F := Ideal) q W (ix2 b k) = sqQ q W b k := by
  rw [val_main_v13_apply]
  unfold sqQ
  refine Finset.sum_congr rfl fun d _ => ?_
  have el : lidx_main_v13 (ix2 b k) d = ix2 b d :=
    funext fun a => Fin.ext (by match a with | ⟨0, _⟩ => rfl | ⟨1, _⟩ => rfl)
  have er : ridx_main_v13 (ix2 b k) d = ix2 k d :=
    funext fun a => Fin.ext (by match a with | ⟨0, _⟩ => rfl | ⟨1, _⟩ => rfl)
  rw [el, er, val_main_v0_apply, val_main_v12_apply, Ideal.mulf_def, Ideal.mulf_def, ref_lastRow]

/-- The reference's array before its final reshape is the quotient form of the distance, entry by entry:
    `−X / (√A · √B · 4096)` at `(b, k, s)`, where `√B` at `(b, k)` has been spread along `s`. -/
theorem ref_quotD (p q : VP) (W : VW) : val_main_v21 (F := Ideal) p q W = quotD p q W := by
  funext j
  obtain ⟨b, k, s, rfl⟩ : ∃ (b : Fin 32) (k : Fin 8192) (s : Fin 10), j = ix3 b k s := ⟨j 0, j 1, j 2, eq_ix3 j⟩
  have e : idx_main_v16 (idx_main_v17 (ix3 b k s)) = ix2 b k :=
    funext fun a => Fin.ext (by match a with | ⟨0, _⟩ => rfl | ⟨1, _⟩ => rfl)
  rw [quotD_apply, val_main_v21_apply, val_main_v15_apply, val_main_v20_apply, val_main_v18_apply, val_main_v11_apply,
    val_main_v17_apply, val_main_v16_apply, val_main_v14_apply, val_main_v19_apply, val_main_cst_apply, e,
    ref_dotW, ref_sqP, ref_sqQ]
  simp only [Ideal.hostDivf_def, Ideal.hostNegf_def, Ideal.negf_def, Ideal.mulf_def, Ideal.hostUnary_sqrt_def, Ideal.ofBits_def]
  rfl

end Cert.ReferenceIdeal.RefValue

end
-- ==== Proof.RefValue.lean ====
/-
  What the reference leaves in its result.

  Every execution of the reference ends with its result array holding the quotient form of the distance,
  `−X / (√A · √B · 4096)` computed as a `[32, 8192, 10]` array over `(b, k, s)` and then re-read in row-major order as
  `[32, 10, 8192]`, and with its three arguments as it found them.  The composed term the run leaves is the last
  stage of the stage-by-stage reading, and that stage is the quotient form entry by entry.
-/
import proofs.«160408_j48481590837593_2_alg».proof.Proof.RefStages

noncomputable section

namespace Cert.ReferenceIdeal.RefValue

open Cert.ReferenceIdeal Cert.ReferenceIdeal.Gen Cert.ReferenceIdeal.Read Idealize.ShloMosaic Idealize.ShloMosaic.ValueIdx Cert.Cosine
open Idealize.ShloMosaic.TcCoe Idealize.SL.Sem Idealize.ShloMosaic.StableHlo

/-- On every device, from any memory with zero counters, the reference terminates with its result equal to the
    reshape to `[32, 10, 8192]` of the quotient form over `[32, 8192, 10]`, its arguments unchanged. -/
theorem run_quot (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) =
          shapeCast S32x10x8192 (quotD (m ((c.tc : Thread nD τ).loc main_arg0)) (m ((c.tc : Thread nD τ).loc main_arg1))
            (m ((c.tc : Thread nD τ).loc main_arg2))) shapeCasts_S32x8192x10_S32x10x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨by
      rw [(h c).1, val_main_v22_eq]
      unfold val_main_v22
      rw [ref_quotD], (h c).2⟩)
    (Cert.ReferenceIdeal.Value.run (F := Ideal) m ρ)

end Cert.ReferenceIdeal.RefValue

end
-- ==== Proof.PreEntry.lean ====
/-
  One entry of a truth-value array.

  Two comparisons against a constant array occur.  "|x| < +∞" entry by entry: the absolute value of an extended real is
  below +∞ exactly when the extended real is neither infinity, that is, when it is a real number.  "x > 0" entry by
  entry: the comparison is the order of the extended reals itself.  The pattern `0x7F800000` denotes +∞ and the
  all-zero pattern denotes 0.
-/
import proofs.«160408_j48481590837593_2_alg».proof.Proof.LibRealValued
import Idealize.ShloMosaic.Lib.StableHlo
import Idealize.ShloMosaic.PureOps.Ideal.Laws

noncomputable section

namespace Cert.Cosine.Pre

open Idealize.ShloMosaic Cert.RealValued

/-- The scalar shape. -/
abbrev S0 : Shape := ⟨0, ![]⟩

/-- The pattern of +∞ denotes the top element. -/
theorem ofBits_posInf : Ideal.ofBits .f32 0x7F800000#32 = (⊤ : EReal) := by
  simp [Ideal.ofBits, Ideal.ieee]

/-- An extended real whose absolute value `max x (-x)` is below +∞ is a real number: at either infinity the absolute
    value is +∞. -/
theorem isReal_of_abs_lt_posInf (x : EReal)
    (h : Ideal.cmp .olt (max x (-x)) (Ideal.ofBits .f32 0x7F800000#32) = 1#1) : IsReal x := by
  rw [ofBits_posInf] at h
  unfold Ideal.cmp at h
  induction x using EReal.rec with
  | bot => simp at h
  | top => simp at h
  | coe r => exact ⟨r, rfl⟩

/-- "Greater than the zero pattern" is positivity. -/
theorem pos_of_gt_zero (y : EReal) (h : Ideal.cmp .ogt y (Ideal.ofBits .f32 0x00000000#32) = 1#1) : 0 < y := by
  rw [Ideal.ofBits_zero_f32] at h
  unfold Ideal.cmp at h
  by_contra hn
  simp [hn] at h

/-- The truth-value array of "|x| < +∞": the absolute value compared with +∞ spread over the shape. -/
def finiteMask {s : Shape} (hb : S0.BroadcastsInDim s (![] : Fin 0 → Fin s.rank)) (x : FVec Ideal s .f32) : IVec s 1 :=
  cmpf .olt (Host.absf x) (broadcastInDim s ![] hb (constant S0 .f32 0x7F800000#32))

/-- The truth-value array of "x > 0": the array compared with 0 spread over the shape. -/
def positiveMask {s : Shape} (hb : S0.BroadcastsInDim s (![] : Fin 0 → Fin s.rank)) (x : FVec Ideal s .f32) : IVec s 1 :=
  cmpf .ogt x (broadcastInDim s ![] hb (constant S0 .f32 0x00000000#32))

/-- Where the first array is true the entry is a real number. -/
theorem isReal_of_finiteMask {s : Shape} (hb : S0.BroadcastsInDim s (![] : Fin 0 → Fin s.rank)) (x : FVec Ideal s .f32)
    (i : s.Idx) (e : finiteMask hb x i = 1#1) : IsReal (x i) :=
  isReal_of_abs_lt_posInf (x i) e

/-- Where the second array is true the entry is positive. -/
theorem pos_of_positiveMask {s : Shape} (hb : S0.BroadcastsInDim s (![] : Fin 0 → Fin s.rank)) (x : FVec Ideal s .f32)
    (i : s.Idx) (e : positiveMask hb x i = 1#1) : 0 < x i :=
  pos_of_gt_zero (x i) e

end Cert.Cosine.Pre

end
-- ==== Proof.PreRead.lean ====
/-
  The precondition's arrays read at an index.

  Its two positivity conjuncts are stated on arrays built from the inputs: a contraction over the feature axis of a
  [8192, 4096] array with a [32, 10, 4096] array, giving [8192, 32, 10], then the first two axes exchanged; and a
  contraction of a [32, 4096] array with a [8192, 4096] array, giving [32, 8192], whose left operand is the last position
  of `q` (positions 9 to 10 of the middle axis, the unit axis then dropped).  Entry by entry these are sums over the 4096
  features:
    the first at (b, k, s) is `Σ_d x[k,d] · y[b,s,d]`,   the second at (b, k) is `Σ_d x[b,d] · y[k,d]`,
  and the last position of `q` at (b, d) is `q[b,9,d]`.  A contraction's index set has one axis of extent 4096, so its sum
  is a sum over `Fin 4096`; which operand coordinate comes from the result's index and which from the contracted one is
  read off the dimension numbers.
-/
import proofs.«160408_j48481590837593_2_alg».proof.Pre_finite_inputs
import Idealize.ShloMosaic.Lib.ValueIdx
import Idealize.ShloMosaic.Lib.Pipeline.Value
import Idealize.ShloMosaic.PureOps.Ideal.Laws

noncomputable section

namespace Cert.Cosine.Pre

open Idealize.ShloMosaic Idealize.ShloMosaic.ValueIdx Cert.Pre_finite_inputs
open scoped BigOperators

variable [Cert.Pre_finite_inputs.Facts]

/-- Dimension numbers of the [8192, 4096] × [32, 10, 4096] → [8192, 32, 10] contraction. -/
abbrev dimsA := dot_S8192x4096_S32x10x4096_S8192x32x10_1_2_0_01_n_n
/-- Dimension numbers of the [32, 4096] × [8192, 4096] → [32, 8192] contraction. -/
abbrev dimsB := dot_S32x4096_S8192x4096_S32x8192_1_1_0_0_n_n

/-! ### The first contraction: which coordinate of each operand comes from where -/

theorem lhsA_0 (i : S8192x32x10.Idx) (c : dimsA.contr.Idx) : (dimsA.lhsIdx i c 0).val = (i 0).val := by
  unfold DotDims.lhsIdx
  rw [dif_neg (show ¬(0 : Fin S8192x4096.rank) ∈ dimsA.lhsBatch from List.not_mem_nil),
    dif_pos (show (0 : Fin S8192x4096.rank) ∈ dimsA.lhsNonContracting from List.mem_singleton.mpr rfl)]
  rfl
theorem rhsA_0 (i : S8192x32x10.Idx) (c : dimsA.contr.Idx) : (dimsA.rhsIdx i c 0).val = (i 1).val := by
  unfold DotDims.rhsIdx
  rw [dif_neg (show ¬(0 : Fin S32x10x4096.rank) ∈ dimsA.rhsBatch from List.not_mem_nil),
    dif_pos (show (0 : Fin S32x10x4096.rank) ∈ dimsA.rhsNonContracting from
      (by decide : (0 : Fin 3) ∈ ([0, 1] : List (Fin 3))))]
  rfl
theorem rhsA_1 (i : S8192x32x10.Idx) (c : dimsA.contr.Idx) : (dimsA.rhsIdx i c 1).val = (i 2).val := by
  unfold DotDims.rhsIdx
  rw [dif_neg (show ¬(1 : Fin S32x10x4096.rank) ∈ dimsA.rhsBatch from List.not_mem_nil),
    dif_pos (show (1 : Fin S32x10x4096.rank) ∈ dimsA.rhsNonContracting from
      (by decide : (1 : Fin 3) ∈ ([0, 1] : List (Fin 3))))]
  rfl

/-- The first contraction at (k, b, s): `Σ_d x[k,d] · y[b,s,d]`. -/
theorem contractA_apply (x : FVec Ideal S8192x4096 .f32) (y : FVec Ideal S32x10x4096 .f32) (k : Fin 8192) (b : Fin 32)
    (s : Fin 10) :
    Host.dotGeneral (F := Ideal) dimsA none x y (ix3 k b s) = ∑ d : Fin 4096, x (ix2 k d) * y (ix3 b s d) := by
  simp only [Host.dotGeneral]
  rw [Ideal.dotGeneral_apply, ← Equiv.sum_comp (contrEquiv1 dimsA 4096 rfl rfl).symm]
  refine Finset.sum_congr rfl fun d _ => ?_
  have hd := contrEquiv1_symm_val dimsA 4096 rfl rfl d
  have el : dimsA.lhsIdx (ix3 k b s) ((contrEquiv1 dimsA 4096 rfl rfl).symm d) = ix2 k d :=
    funext fun a => Fin.ext (by
      match a with
      | ⟨0, _⟩ => exact lhsA_0 _ _
      | ⟨1, _⟩ => exact (dimsA.lhsIdx_val_of_single (cl := 1) rfl _ _).trans hd)
  have er : dimsA.rhsIdx (ix3 k b s) ((contrEquiv1 dimsA 4096 rfl rfl).symm d) = ix3 b s d :=
    funext fun a => Fin.ext (by
      match a with
      | ⟨0, _⟩ => exact rhsA_0 _ _
      | ⟨1, _⟩ => exact rhsA_1 _ _
      | ⟨2, _⟩ => exact (dimsA.rhsIdx_val_of_single (cr := 2) rfl _ _).trans hd)
  rw [el, er]

/-! ### The second contraction -/

theorem lhsB_0 (i : S32x8192.Idx) (c : dimsB.contr.Idx) : (dimsB.lhsIdx i c 0).val = (i 0).val := by
  unfold DotDims.lhsIdx
  rw [dif_neg (show ¬(0 : Fin S32x4096.rank) ∈ dimsB.lhsBatch from List.not_mem_nil),
    dif_pos (show (0 : Fin S32x4096.rank) ∈ dimsB.lhsNonContracting from List.mem_singleton.mpr rfl)]
  rfl
theorem rhsB_0 (i : S32x8192.Idx) (c : dimsB.contr.Idx) : (dimsB.rhsIdx i c 0).val = (i 1).val := by
  unfold DotDims.rhsIdx
  rw [dif_neg (show ¬(0 : Fin S8192x4096.rank) ∈ dimsB.rhsBatch from List.not_mem_nil),
    dif_pos (show (0 : Fin S8192x4096.rank) ∈ dimsB.rhsNonContracting from List.mem_singleton.mpr rfl)]
  rfl

/-- The second contraction at (b, k): `Σ_d x[b,d] · y[k,d]`. -/
theorem contractB_apply (x : FVec Ideal S32x4096 .f32) (y : FVec Ideal S8192x4096 .f32) (b : Fin 32) (k : Fin 8192) :
    Host.dotGeneral (F := Ideal) dimsB none x y (ix2 b k) = ∑ d : Fin 4096, x (ix2 b d) * y (ix2 k d) := by
  simp only [Host.dotGeneral]
  rw [Ideal.dotGeneral_apply, ← Equiv.sum_comp (contrEquiv1 dimsB 4096 rfl rfl).symm]
  refine Finset.sum_congr rfl fun d _ => ?_
  have hd := contrEquiv1_symm_val dimsB 4096 rfl rfl d
  have el : dimsB.lhsIdx (ix2 b k) ((contrEquiv1 dimsB 4096 rfl rfl).symm d) = ix2 b d :=
    funext fun a => Fin.ext (by
      match a with
      | ⟨0, _⟩ => exact lhsB_0 _ _
      | ⟨1, _⟩ => exact (dimsB.lhsIdx_val_of_single (cl := 1) rfl _ _).trans hd)
  have er : dimsB.rhsIdx (ix2 b k) ((contrEquiv1 dimsB 4096 rfl rfl).symm d) = ix2 k d :=
    funext fun a => Fin.ext (by
      match a with
      | ⟨0, _⟩ => exact rhsB_0 _ _
      | ⟨1, _⟩ => exact (dimsB.rhsIdx_val_of_single (cr := 1) rfl _ _).trans hd)
  rw [el, er]

/-! ### The two layout operations -/

/-- Exchanging the first two axes: the entry at (b, k, s) is the operand's at (k, b, s). -/
theorem swap01_apply (x : FVec Ideal S8192x32x10 .f32) (b : Fin 32) (k : Fin 8192) (s : Fin 10) :
    transpose S32x8192x10 [1, 0, 2] x Facts.transposes_S8192x32x10_S32x8192x10_1_0_2 (ix3 b k s) = x (ix3 k b s) :=
  transpose_apply [1, 0, 2] x Facts.transposes_S8192x32x10_S32x8192x10_1_0_2 (ix3 b k s) (ix3 k b s) (fun a => match a with
    | ⟨0, _⟩ => rfl
    | ⟨1, _⟩ => rfl
    | ⟨2, _⟩ => rfl)

/-- The last position of `q`: positions 9 to 10 of the middle axis, the unit axis dropped. -/
abbrev lastPos (q : FVec Ideal S32x10x4096 .f32) : FVec Ideal S32x4096 .f32 :=
  shapeCast S32x4096 (extractStridedSlice S32x1x4096 ![0, 9, 0] q Facts.slices_S32x10x4096_S32x1x4096_0_9_0)
    Facts.shapeCasts_S32x1x4096_S32x4096

/-- Its entry at (b, d) is `q[b,9,d]`: dropping the unit axis keeps the row-major position `b · 4096 + d`, and the
    slice starts at position 9 of the middle axis. -/
theorem lastPos_apply (q : FVec Ideal S32x10x4096 .f32) (b : Fin 32) (d : Fin 4096) :
    shapeCast S32x4096 (extractStridedSlice S32x1x4096 ![0, 9, 0] q Facts.slices_S32x10x4096_S32x1x4096_0_9_0)
      Facts.shapeCasts_S32x1x4096_S32x4096 (ix2 b d) = q (ix3 b 9 d) := by
  rw [shapeCast_apply _ Facts.shapeCasts_S32x1x4096_S32x4096 (ix2 b d) (ix3 b (0 : Fin 1) d)
    (by rw [Shape.rowMajor_val_three, Shape.rowMajor_val_two]
        show (b.val * 1 + 0) * 4096 + d.val = b.val * 4096 + d.val; omega)]
  exact extractStridedSlice_apply ![0, 9, 0] q Facts.slices_S32x10x4096_S32x1x4096_0_9_0 (ix3 b (0 : Fin 1) d) (ix3 b 9 d)
    (fun a => match a with
      | ⟨0, _⟩ => by show b.val = 0 + b.val; omega
      | ⟨1, _⟩ => by show 9 = 9 + 0; rfl
      | ⟨2, _⟩ => by show d.val = 0 + d.val; omega)

end Cert.Cosine.Pre

end
-- ==== Proof.PreFacts.lean ====
/-
  What the precondition says about the inputs.

  It is a conjunction of five statements "every entry of this truth-value array is true", joined two at a time:
  |p| < +∞, |q| < +∞, |W| < +∞ everywhere, and two weighted squared norms positive everywhere,
    `A(b,k,s) = Σ_d W[k,d]² · p[b,s,d]²`   on [32, 8192, 10],      `B(b,k) = Σ_d q[b,9,d]² · W[k,d]²`   on [32, 8192].
  A conjunction of two truth values is true exactly when both are; a conjunction over a whole array, folded from "true",
  is true exactly when every entry is.  The first three statements make every input entry a real number; the last two,
  with the two contractions read as sums over the feature axis, are the positivity of `A` and `B`.
-/
import proofs.«160408_j48481590837593_2_alg».proof.Pre_finite_inputs
import proofs.«160408_j48481590837593_2_alg».proof.Proof.Cosine
import proofs.«160408_j48481590837593_2_alg».proof.Proof.PreEntry
import proofs.«160408_j48481590837593_2_alg».proof.Proof.PreRead
import Idealize.ShloMosaic.Lib.ReduceAll
import Idealize.ShloMosaic.Lib.ValueIdx
import Idealize.ShloMosaic.PureOps.Ideal.Laws

noncomputable section

namespace Cert.Cosine.Pre

open Idealize.ShloMosaic Idealize.ShloMosaic.ValueIdx Cert.Pre_finite_inputs Cert.RealValued
open scoped BigOperators

variable [Cert.Pre_finite_inputs.Facts]

/-- The scalar shape has one index. -/
instance scalarIdx_subsingleton : Subsingleton S_.Idx := ⟨fun a b => funext fun d => d.elim0⟩

/-- The five truth-value arrays of the precondition are true at every entry. -/
theorem masks_of_pre (p q : FVec Ideal S32x10x4096 .f32) (W : FVec Ideal S8192x4096 .f32)
    (h : Cert.Pre_finite_inputs.fn (F := Ideal) p q W = fun _ => 1#1) :
    (∀ i, finiteMask Facts.bcast_S_S32x10x4096 p i = 1#1) ∧ (∀ i, finiteMask Facts.bcast_S_S32x10x4096 q i = 1#1)
      ∧ (∀ i, finiteMask Facts.bcast_S_S8192x4096 W i = 1#1)
      ∧ (∀ i, positiveMask Facts.bcast_S_S32x8192x10 (transpose S32x8192x10 [1, 0, 2]
          (Host.dotGeneral (F := Ideal) dimsA none (mulf W W) (mulf p p)) Facts.transposes_S8192x32x10_S32x8192x10_1_0_2) i = 1#1)
      ∧ (∀ i, positiveMask Facts.bcast_S_S32x8192
          (Host.dotGeneral (F := Ideal) dimsB none (mulf (lastPos q) (lastPos q)) (mulf W W)) i = 1#1) := by
  have h0 := congrFun h ix0
  dsimp only [Cert.Pre_finite_inputs.fn, Cert.Pre_finite_inputs.fn_part1, Idealize.ShloMosaic.andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨fun i => Host.reduce_andi_all _ _ _ _ ix0 h1 i, fun i => Host.reduce_andi_all _ _ _ _ ix0 h2 i,
    fun i => Host.reduce_andi_all _ _ _ _ ix0 h3 i, fun i => Host.reduce_andi_all _ _ _ _ ix0 h4 i,
    fun i => Host.reduce_andi_all _ _ _ _ ix0 h5 i⟩

/-- Under the precondition every entry of `p`, `q` and `W` is a real number and both weighted squared norms are
    positive everywhere. -/
theorem facts_of_pre (p q : FVec Ideal Cert.Pre_finite_inputs.S32x10x4096 .f32)
    (W : FVec Ideal Cert.Pre_finite_inputs.S8192x4096 .f32)
    (h : Cert.Pre_finite_inputs.fn (F := Ideal) p q W = fun _ => 1#1) :
    (∀ i, Cert.RealValued.IsReal (p i)) ∧ (∀ i, IsReal (q i)) ∧ (∀ i, IsReal (W i))
      ∧ (∀ b k s, 0 < Cert.Cosine.sqP p W b k s) ∧ (∀ b k, 0 < Cert.Cosine.sqQ q W b k) := by
  obtain ⟨m1, m2, m3, m4, m5⟩ := masks_of_pre p q W h
  refine ⟨fun i => isReal_of_finiteMask _ p i (m1 i), fun i => isReal_of_finiteMask _ q i (m2 i),
    fun i => isReal_of_finiteMask _ W i (m3 i), fun b k s => ?_, fun b k => ?_⟩
  · have hpos := pos_of_positiveMask _ _ _ (m4 (ix3 b k s))
    rw [swap01_apply, contractA_apply] at hpos
    exact hpos
  · have hpos := pos_of_positiveMask _ _ _ (m5 (ix2 b k))
    rw [contractB_apply] at hpos
    simp only [mulf_apply, lastPos_apply] at hpos
    exact hpos

end Cert.Cosine.Pre

end
-- ==== Proof.lean ====
/-
  The multi-perspective cosine distance: a kernel against its reference, over the extended reals.

  Both programs compute, for a batch `b`, a perspective `k` and a position `s`, from the three contractions over the
  feature axis `X = Σ_d W[k,d]² p[b,s,d] q[b,9,d]`, `A = Σ_d W[k,d]² p[b,s,d]²`, `B = Σ_d q[b,9,d]² W[k,d]²`: the
  reference the quotient `−X / (√A · √B · 4096)`, the kernel the product `X · A^(−1/2) · B^(−1/2) · (−1/4096)`; both then
  flatten the same `[32, 8192, 10]` array to `[32, 10, 8192]`.  The precondition says that every input is finite and
  that `A` and `B` are positive everywhere — the domain on which the reference's quotient is defined (at `A = 0` or
  `B = 0` it is `0 / 0`).  There `X`, `A`, `B` are real numbers, the two forms are one real number
  (Proof/Cosine.lean), the reference's run ends at the quotient form (Proof/RefValue.lean) and the kernel's at the
  product form (Proof/KernelValue.lean, over the frame of Proof/KernelIdealFrame.lean); the precondition is read in
  Proof/PreFacts.lean.  The frames: the kernel's two by Proof/KernelFrame.lean and Proof/KernelIdealFrame.lean (one
  text at the two instances), the reference's its run with the result dropped.  The idealization rewrote nothing, so
  it preserves the kernel trivially.
-/
import proofs.«160408_j48481590837593_2_alg».proof.Defs
import proofs.«160408_j48481590837593_2_alg».proof.Proof.Gen.Kernel
import proofs.«160408_j48481590837593_2_alg».proof.Proof.Gen.Kernel.Skeleton
import proofs.«160408_j48481590837593_2_alg».proof.Proof.Gen.Kernel.Launch
import proofs.«160408_j48481590837593_2_alg».proof.Proof.Gen.Kernel.Points
import proofs.«160408_j48481590837593_2_alg».proof.Proof.Gen.KernelIdeal
import proofs.«160408_j48481590837593_2_alg».proof.Proof.Gen.KernelIdeal.Skeleton
import proofs.«160408_j48481590837593_2_alg».proof.Proof.Gen.KernelIdeal.Launch
import proofs.«160408_j48481590837593_2_alg».proof.Proof.Gen.KernelIdeal.Points
import proofs.«160408_j48481590837593_2_alg».proof.Proof.Gen.ReferenceIdeal
import proofs.«160408_j48481590837593_2_alg».proof.Proof.Gen.Pre_finite_inputs
import proofs.«160408_j48481590837593_2_alg».proof.Proof.Gen.ReferenceIdeal.Run
import proofs.«160408_j48481590837593_2_alg».proof.Proof.Gen.ReferenceIdeal.Read
import proofs.«160408_j48481590837593_2_alg».proof.Proof.KernelFrame
import proofs.«160408_j48481590837593_2_alg».proof.Proof.KernelIdealFrame
import proofs.«160408_j48481590837593_2_alg».proof.Proof.KernelValue
import proofs.«160408_j48481590837593_2_alg».proof.Proof.RefValue
import proofs.«160408_j48481590837593_2_alg».proof.Proof.PreFacts
import proofs.«160408_j48481590837593_2_alg».proof.Proof.Cosine
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, with finite inputs and both squared norms positive, the kernel ends at the
    flattened product form and the reference at the flattened quotient form of the same arguments: one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.run_prod m ρ, ?_⟩
  refine (θ_run Cert.ReferenceIdeal.defs _ _).mono (fun _ h c => ⟨(h c).1.trans ?_, (h c).2⟩)
    (Cert.ReferenceIdeal.RefValue.run_quot m' ρ')
  obtain ⟨hp, hq, hW, hA, hB⟩ := Cert.Cosine.Pre.facts_of_pre _ _ _ (hpre c)
  rw [(hagree c).1, (hagree c).2.1, (hagree c).2.2, Cert.Cosine.prodD_eq_quotD _ _ _ hp hq hW hA hB]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
